-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S4x2048x2048 .f32) (main_arg1 : IVec S2048x2048 32) (main_arg2 : FVec F S2048 .f32) (main_arg3 : FVec F S2048 .f32) (main_arg4 : FVec F S1 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S8192x2048 : Shape := ⟨2, ![8192, 2048]⟩
abbrev S1x2048 : Shape := ⟨2, ![1, 2048]⟩
abbrev S256x2048 : Shape := ⟨2, ![256, 2048]⟩

abbrev nBuf : Space → Nat
  | .hbm => 11
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .i32⟩
  | .hbm, ⟨2, _⟩ => ⟨S2048, .f32⟩
  | .hbm, ⟨3, _⟩ => ⟨S2048, .f32⟩
  | .hbm, ⟨4, _⟩ => ⟨S1, .f32⟩
  | .hbm, ⟨5, _⟩ => ⟨S8192x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1, .f32⟩
  | .local _ .vmem, ⟨6, _⟩ => ⟨S256x2048, .f32⟩
  | .local _ .vmem, ⟨7, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x2048_S8192x2048 : S4x2048x2048.ShapeCasts S8192x2048
  shapeCasts_S2048_S1x2048 : S2048.ShapeCasts S1x2048
  inb_S1_S1_0 : ∀ a, (![0] : Fin 1 → Nat) a + S1.size a ≤ S1.size a
  h_S1 : 0 < S1.numel
  inpos_S1_p0 : ∀ a, (![0] : Fin 1 → Nat) a < S1.size a
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S8192x2048_S4x2048x2048 : S8192x2048.ShapeCasts S4x2048x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S1x1x1 : Shape := ⟨3, ![1, 1, 1]⟩
abbrev S_ : Shape := ⟨0, ![]⟩
abbrev S2048x1 : Shape := ⟨2, ![2048, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .i32⟩
  | .hbm, ⟨2, _⟩ => ⟨S2048, .f32⟩
  | .hbm, ⟨3, _⟩ => ⟨S2048, .f32⟩
  | .hbm, ⟨4, _⟩ => ⟨S1, .f32⟩
  | .hbm, ⟨5, _⟩ => ⟨S1x1x1, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S1x1x1, .f32⟩
  | .hbm, ⟨18, _⟩ => ⟨S4x2048x2048, .f32⟩
  | .hbm, ⟨19, _⟩ => ⟨S4x2048x2048, .f32⟩
  | .hbm, ⟨20, _⟩ => ⟨S2048x2048, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S4x2048x2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S4x2048x2048_0_1_2 : S1x1x1.BroadcastsInDim S4x2048x2048 (![0, 1, 2] : Fin 3 → Fin S4x2048x2048.rank)
  bcast_S_S4x2048x2048 : S_.BroadcastsInDim S4x2048x2048 (![] : Fin 0 → Fin S4x2048x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.LibRealSum.lean ====
/-
  Finite sums of real numbers taken inside the extended reals.

  The extended reals do not distribute (∞ · (1 + (-1)) is not ∞ + (-∞)), so a factor cannot in general be moved
  across a sum there. When every summand and the factor are real numbers it can: the sum of the reals' images is the
  image of the real sum, and the real numbers are a field. The lemmas here are that statement in the shape a
  contraction with folded scales needs: Σ_k (a_k · s) · (b_k · t) = (Σ_k a_k · b_k) · (t · s).
-/
import Idealize.ShloMosaic.PureOps.Ideal

noncomputable section

namespace Cert.Lib.RealSum

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Σ_k (a_k · s) · (b_k · t) = (Σ_k a_k · b_k) · (t · s) for real numbers a_k, b_k, s, t, read in the extended reals:
    a scale on each operand of a contraction is one scale on the contraction. -/
theorem sum_rescale_real {n : ℕ} (a b : Fin n → ℝ) (s t : ℝ) :
    ∑ k, (((a k : ℝ) : EReal) * (s : EReal)) * (((b k : ℝ) : EReal) * (t : EReal))
      = (∑ k, ((a k : ℝ) : EReal) * ((b k : ℝ) : EReal)) * ((t : EReal) * (s : EReal)) := by
  simp only [← EReal.coe_mul]
  rw [coe_sum, coe_sum, ← EReal.coe_mul, Finset.sum_mul]
  exact congrArg _ (Finset.sum_congr rfl fun k _ => by ring)

/-- The same for extended reals each known to be a real number. -/
theorem sum_rescale {n : ℕ} (q w : Fin n → EReal) (s t : EReal)
    (hq : ∀ k, ∃ r : ℝ, q k = (r : EReal)) (hw : ∀ k, ∃ r : ℝ, w k = (r : EReal))
    (hs : ∃ r : ℝ, s = (r : EReal)) (ht : ∃ r : ℝ, t = (r : EReal)) :
    ∑ k, (q k * s) * (w k * t) = (∑ k, q k * w k) * (t * s) := by
  choose a ha using hq
  choose b hb using hw
  obtain ⟨s', rfl⟩ := hs
  obtain ⟨t', rfl⟩ := ht
  simp only [ha, hb]
  exact sum_rescale_real a b s' t'

end Cert.Lib.RealSum

end
-- ==== Proof.QuantSpec.lean ====
/-
  The function both programs compute, stated once over the argument arrays.

  Write q(y) = min(127, max(-128, roundeven y)) for the int8 quantizer on the extended reals. Whatever y is
  (an infinity too: dividing by a zero scale gives one), q(y) lies between -128 and 127, so it is a real number.
  With activations x[b,s,k], integer weights w[o,k], a per-output-row scale ws[o], a bias[o] and one activation
  scale xs, the result at (b,s,o) is written in two arrangements:

    factored  : (Σ_k q(x[b,s,k]/xs) · w[o,k]) · (ws[o] · xs) + bias[o]
    termwise  : Σ_k (q(x[b,s,k]/xs) · xs) · (w[o,k] · ws[o]) + bias[o]

  They agree as soon as xs and ws[o] are real numbers: every summand is then a product of four reals, and
  (a·s)·(b·t) = (a·b)·(t·s) summed over k pulls the common factor t·s out of a finite sum of reals. (With an infinite
  scale the common factor could not be moved across the sum: the extended reals do not distribute.)
-/
import Idealize.ShloMosaic.PureOps.Ideal
import Idealize.ShloMosaic.Lib.ValueIdx
import proofs.«172959_j15753940041870_2_alg».proof.Proof.LibRealSum

noncomputable section

namespace Cert.W8A8

open Idealize.ShloMosaic Idealize.ShloMosaic.ValueIdx

/-- Activations and result, [4, 2048, 2048]. -/
abbrev SX : Shape := ⟨3, ![4, 2048, 2048]⟩
/-- Weights, [2048 output rows, 2048 inputs]. -/
abbrev SW : Shape := ⟨2, ![2048, 2048]⟩
/-- A per-output-row vector, [2048]. -/
abbrev SV : Shape := ⟨1, ![2048]⟩
/-- The one-entry scale, [1]. -/
abbrev SS : Shape := ⟨1, ![1]⟩
/-- The activations with batch and sequence merged, [8192, 2048]. -/
abbrev SM : Shape := ⟨2, ![8192, 2048]⟩
/-- A per-output-row vector as one row, [1, 2048]. -/
abbrev SR : Shape := ⟨2, ![1, 2048]⟩

/-! ## The two clamp bounds -/

/-- The lower bound's word denotes -128. -/
theorem lo_eq : Ideal.ofBits .f32 0xC3000000#32 = ((-128 : ℝ) : EReal) := by
  simp [Ideal.ofBits, Ideal.ieee, -EReal.coe_mul]; norm_num

/-- The upper bound's word denotes 127. -/
theorem hi_eq : Ideal.ofBits .f32 0x42FE0000#32 = ((127 : ℝ) : EReal) := by
  simp [Ideal.ofBits, Ideal.ieee, -EReal.coe_mul]; norm_num

/-! ## The quantizer -/

/-- Round to the nearest integer (ties to even), then clamp to [-128, 127]. -/
def quant (y : EReal) : EReal :=
  min (Ideal.ofBits .f32 0x42FE0000#32) (max (Ideal.ofBits .f32 0xC3000000#32) (Ideal.liftRound Ideal.roundHalfEven y))

/-- A quantized value is a real number, whatever was quantized: it is at least min(127, -128) and at most 127. -/
theorem quant_real (y : EReal) : ∃ r : ℝ, quant y = (r : EReal) := by
  unfold quant
  rw [lo_eq, hi_eq]
  generalize Ideal.liftRound Ideal.roundHalfEven y = z
  have h1 : max (((-128 : ℝ)) : EReal) z ≠ ⊥ := fun h => by
    have hle := le_max_left (((-128 : ℝ)) : EReal) z
    rw [h] at hle
    exact EReal.coe_ne_bot _ (le_bot_iff.mp hle)
  have h2 : min (((127 : ℝ)) : EReal) (max (((-128 : ℝ)) : EReal) z) ≠ ⊥ := by
    rcases min_choice (((127 : ℝ)) : EReal) (max (((-128 : ℝ)) : EReal) z) with h | h <;> rw [h]
    · exact EReal.coe_ne_bot _
    · exact h1
  have h3 : min (((127 : ℝ)) : EReal) (max (((-128 : ℝ)) : EReal) z) ≠ ⊤ := fun h => by
    have hle := min_le_left (((127 : ℝ)) : EReal) (max (((-128 : ℝ)) : EReal) z)
    rw [h] at hle
    exact EReal.coe_ne_top _ (top_le_iff.mp hle)
  exact ⟨_, (EReal.coe_toReal h3 h2).symm⟩

/-! ## The result, in its two arrangements -/

/-- The quantized activation at (b, s, k). -/
def qact (x : FVec Ideal SX .f32) (xs : FVec Ideal SS .f32) (b : Fin 4) (s k : Fin 2048) : EReal :=
  quant (Ideal.div (x (ix3 b s k)) (xs (ix1 0)))

/-- The integer weight at (o, k), as a real number. -/
def wint (wi : IVec SW 32) (o k : Fin 2048) : EReal := (((wi (ix2 o k)).toInt : ℝ) : EReal)

/-- Factored: the integer product first, the two scales after it. -/
def outFactored (x : FVec Ideal SX .f32) (wi : IVec SW 32) (ws bias : FVec Ideal SV .f32) (xs : FVec Ideal SS .f32) :
    FVec Ideal SX .f32 := fun i =>
  (∑ k : Fin 2048, qact x xs (i 0) (i 1) k * wint wi (i 2) k) * (ws (ix1 (i 2)) * xs (ix1 0)) + bias (ix1 (i 2))

/-- Termwise: both operands dequantized before the product. -/
def outTermwise (x : FVec Ideal SX .f32) (wi : IVec SW 32) (ws bias : FVec Ideal SV .f32) (xs : FVec Ideal SS .f32) :
    FVec Ideal SX .f32 := fun i =>
  (∑ k : Fin 2048, (qact x xs (i 0) (i 1) k * xs (ix1 0)) * (wint wi (i 2) k * ws (ix1 (i 2)))) + bias (ix1 (i 2))

/-- With real scales the two arrangements are one function. -/
theorem outTermwise_eq_outFactored (x : FVec Ideal SX .f32) (wi : IVec SW 32) (ws bias : FVec Ideal SV .f32)
    (xs : FVec Ideal SS .f32) (hxs : ∃ r : ℝ, xs (ix1 0) = (r : EReal))
    (hws : ∀ o : Fin 2048, ∃ r : ℝ, ws (ix1 o) = (r : EReal)) :
    outTermwise x wi ws bias xs = outFactored x wi ws bias xs := by
  funext i
  unfold outTermwise outFactored
  exact congrArg (· + bias (ix1 (i 2)))
    (Cert.Lib.RealSum.sum_rescale (fun k => qact x xs (i 0) (i 1) k) (fun k => wint wi (i 2) k) (xs (ix1 0)) (ws (ix1 (i 2)))
      (fun k => quant_real _) (fun k => ⟨_, rfl⟩) hxs (hws (i 2)))

/-! ## The factored form over the merged rows -/

/-- What the matrix product computes on the [8192, 2048] activations: row r against weight row o. -/
def outRows (x2 : FVec Ideal SM .f32) (wb : FVec Ideal SW .bf16) (ws2 b2 : FVec Ideal SR .f32) (xs : FVec Ideal SS .f32) :
    FVec Ideal SM .f32 := fun j =>
  (∑ k : Fin 2048, quant (Ideal.div (x2 (ix2 (j 0) k)) (xs (ix1 0))) * wb (ix2 (j 1) k))
      * (ws2 (ix2 (0 : Fin 1) (j 1)) * xs (ix1 0)) + b2 (ix2 (0 : Fin 1) (j 1))

end Cert.W8A8

end
-- ==== Proof.BodyValue.lean ====
/-
  What the kernel body stores, at one entry of its [256, 2048] output block.

  The body quantizes its 256 activation rows (divide by the scale, round, clamp), multiplies them against all 2048
  weight rows contracting the last axis of both — entry (p, q) of the product is Σ_k a[p,k] · w[q,k] —, scales
  column q by ws[q] · xs and adds bias[q]. The scale row and the bias row are [1, 2048] blocks broadcast down the
  256 rows, so column q reads their entry (0, q).
-/
import proofs.«172959_j15753940041870_2_alg».proof.Proof.Gen.KernelIdeal.Skeleton
import proofs.«172959_j15753940041870_2_alg».proof.Proof.QuantSpec
import Idealize.ShloMosaic.Lib.Pipeline.Value
import Idealize.ShloMosaic.Lib.ValueIdx
import Idealize.ShloMosaic.PureOps.Ideal.Laws

noncomputable section

namespace Cert.W8A8.Body

open Idealize.ShloMosaic Idealize.ShloMosaic.ValueIdx Cert.KernelIdeal Cert.KernelIdeal.Gen Cert.W8A8

/-! ## The product's operand indices: rows of the left operand against rows of the right -/

theorem lhs_row (j : S256x2048.Idx) (c : dot_S256x2048_S2048x2048_S256x2048_1_1_0_0_n_n.contr.Idx) :
    (dot_S256x2048_S2048x2048_S256x2048_1_1_0_0_n_n.lhsIdx j c 0).val = (j 0).val := by
  unfold DotDims.lhsIdx
  rw [dif_neg (show ¬(0 : Fin S256x2048.rank) ∈ dot_S256x2048_S2048x2048_S256x2048_1_1_0_0_n_n.lhsBatch by decide),
    dif_pos (show (0 : Fin S256x2048.rank) ∈ dot_S256x2048_S2048x2048_S256x2048_1_1_0_0_n_n.lhsNonContracting by decide)]
  rfl

theorem lhs_contr (j : S256x2048.Idx) (c : dot_S256x2048_S2048x2048_S256x2048_1_1_0_0_n_n.contr.Idx) :
    (dot_S256x2048_S2048x2048_S256x2048_1_1_0_0_n_n.lhsIdx j c 1).val = (c ⟨0, by decide⟩).val :=
  dot_S256x2048_S2048x2048_S256x2048_1_1_0_0_n_n.lhsIdx_val_of_single rfl j c

theorem rhs_row (j : S256x2048.Idx) (c : dot_S256x2048_S2048x2048_S256x2048_1_1_0_0_n_n.contr.Idx) :
    (dot_S256x2048_S2048x2048_S256x2048_1_1_0_0_n_n.rhsIdx j c 0).val = (j 1).val := by
  unfold DotDims.rhsIdx
  rw [dif_neg (show ¬(0 : Fin S2048x2048.rank) ∈ dot_S256x2048_S2048x2048_S256x2048_1_1_0_0_n_n.rhsBatch by decide),
    dif_pos (show (0 : Fin S2048x2048.rank) ∈ dot_S256x2048_S2048x2048_S256x2048_1_1_0_0_n_n.rhsNonContracting by decide)]
  rfl

theorem rhs_contr (j : S256x2048.Idx) (c : dot_S256x2048_S2048x2048_S256x2048_1_1_0_0_n_n.contr.Idx) :
    (dot_S256x2048_S2048x2048_S256x2048_1_1_0_0_n_n.rhsIdx j c 1).val = (c ⟨0, by decide⟩).val :=
  dot_S256x2048_S2048x2048_S256x2048_1_1_0_0_n_n.rhsIdx_val_of_single rfl j c

/-- Entry (p, q) of the block product into a zero accumulator is Σ_k a[p,k] · w[q,k]. -/
theorem product_at (a : FVec Ideal S256x2048 .bf16) (w : FVec Ideal S2048x2048 .bf16) (p : Fin 256) (q : Fin 2048) :
    FloatOps.matmul dot_S256x2048_S2048x2048_S256x2048_1_1_0_0_n_n none a w (constant (F := Ideal) S256x2048 .f32 0x00000000#32) (ix2 p q)
      = ∑ k : Fin 2048, a (ix2 p k) * w (ix2 q k) := by
  rw [Ideal.matmul_constant_zero_apply,
    ← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 p q)
      ((contrEquiv1 dot_S256x2048_S2048x2048_S256x2048_1_1_0_0_n_n 2048 rfl rfl).symm k) = ix2 p k :=
    funext fun d => Fin.ext (by
      match d with
      | ⟨0, _⟩ => exact lhs_row _ _
      | ⟨1, _⟩ => exact (lhs_contr _ _).trans hk)
  have er : dot_S256x2048_S2048x2048_S256x2048_1_1_0_0_n_n.rhsIdx (ix2 p q)
      ((contrEquiv1 dot_S256x2048_S2048x2048_S256x2048_1_1_0_0_n_n 2048 rfl rfl).symm k) = ix2 q k :=
    funext fun d => Fin.ext (by
      match d with
      | ⟨0, _⟩ => exact rhs_row _ _
      | ⟨1, _⟩ => exact (rhs_contr _ _).trans hk)
  rw [el, er]

/-- A [1, 2048] row broadcast down 256 rows reads its entry (0, q) in column q. -/
theorem row_down (r : FVec Ideal S1x2048 .f32) (p : Fin 256) (q : Fin 2048) :
    broadcastTo S256x2048 r broadcasts_S1x2048_S256x2048 (ix2 p q) = r (ix2 (0 : Fin 1) q) :=
  broadcastTo_apply r broadcasts_S1x2048_S256x2048 (ix2 p q) (ix2 (0 : Fin 1) q)
    (fun d => match d with | ⟨0, _⟩ => rfl | ⟨1, _⟩ => rfl)

/-- The one-entry scale block, extracted as a scalar, is its entry. -/
theorem scale_entry (v0 : Vec Ideal S1 .f32) : extractAt ![0] v0 inpos_S1_p0 = v0 (ix1 0) :=
  congrArg v0 (funext fun d => match d with | ⟨0, _⟩ => rfl)

/-- The stored value at (p, q). -/
theorem stored_at (v0 : Vec Ideal S1 .f32) (v2 : Vec Ideal S256x2048 .f32) (v12 : Vec Ideal S2048x2048 .bf16)
    (v15 v21 : Vec Ideal S1x2048 .f32) (p : Fin 256) (q : Fin 2048) :
    k0_pay1 v0 v2 v12 v15 v21 (ix2 p q)
      = (∑ k : Fin 2048, quant (Ideal.div (v2 (ix2 p k)) (v0 (ix1 0))) * v12 (ix2 q k))
          * (v15 (ix2 (0 : Fin 1) q) * v0 (ix1 0)) + v21 (ix2 (0 : Fin 1) q) := by
  unfold k0_pay1
  rw [addf_apply, mulf_apply]
  refine congrArg₂ (· + ·) (congrArg₂ (· * ·) ?_ ?_) ?_
  · refine (product_at _ _ p q).trans (Finset.sum_congr rfl fun k _ => ?_)
    rw [shapeCast_self v12]
    refine congrArg (· * v12 (ix2 q k)) ?_
    show quant (Ideal.div (shapeCast S256x2048 v2 shapeCasts_S256x2048_S256x2048 (ix2 p k)) (extractAt ![0] v0 inpos_S1_p0)) = _
    rw [shapeCast_self v2, scale_entry]
  · refine (row_down _ p q).trans ?_
    show shapeCast S1x2048 v15 shapeCasts_S1x2048_S1x2048 (ix2 (0 : Fin 1) q) * extractAt ![0] v0 inpos_S1_p0 = _
    rw [shapeCast_self v15, scale_entry]
  · refine (row_down _ p q).trans ?_
    rw [shapeCast_self v21]

end Cert.W8A8.Body

end
-- ==== Proof.MergedRows.lean ====
/-
  Merging batch and sequence into one row axis and splitting it again changes nothing.

  Row r = 2048·b + s of the merged [8192, 2048] activations is row (b, s) of the [4, 2048, 2048] ones (same
  row-major position), a [2048] vector laid as one [1, 2048] row keeps its entries, and the integer weights read as
  floats of either width are the integers themselves. So the row form of the product over the merged, reshaped
  arguments, split back into [4, 2048, 2048], is the factored arrangement over the arguments as given.
-/
import proofs.«172959_j15753940041870_2_alg».proof.Proof.QuantSpec
import Idealize.ShloMosaic.Lib.Pipeline.Value
import Idealize.ShloMosaic.Lib.ValueLayout

noncomputable section

namespace Cert.W8A8

open Idealize.ShloMosaic Idealize.ShloMosaic.ValueIdx

/-- Row 2048·b + s of the merged activations, at column k, is entry (b, s, k). -/
theorem merged_at (x : FVec Ideal SX .f32) (h : SX.ShapeCasts SM) (b : Fin 4) (s k : Fin 2048) (r : Fin 8192)
    (hr : r.val = b.val * 2048 + s.val) : shapeCast SM x h (ix2 r k) = x (ix3 b s k) :=
  shapeCast_apply x h (ix2 r k) (ix3 b s k) (by
    rw [Shape.rowMajor_val_three, Shape.rowMajor_val_two]
    show (b.val * 2048 + s.val) * 2048 + k.val = r.val * 2048 + k.val
    rw [hr])

/-- The row form over the merged arguments, split back, is the factored arrangement. -/
theorem rows_split (x : FVec Ideal SX .f32) (wi : IVec SW 32) (ws bias : FVec Ideal SV .f32) (xs : FVec Ideal SS .f32)
    (h1 : SX.ShapeCasts SM) (h2 h3 : SV.ShapeCasts SR) (h4 : SM.ShapeCasts SX) :
    shapeCast SX (outRows (shapeCast SM x h1) (sitofp (F := Ideal) .bf16 wi) (shapeCast SR ws h2) (shapeCast SR bias h3) xs) h4
      = outFactored x wi ws bias xs := by
  funext i
  have hb : (i 0).val < 4 := (i 0).isLt
  have hs : (i 1).val < 2048 := (i 1).isLt
  let r : Fin 8192 := ⟨(i 0).val * 2048 + (i 1).val, by omega⟩
  refine (shapeCast_apply _ h4 i (ix2 r (i 2)) (by
    rw [Shape.rowMajor_val_three, Shape.rowMajor_val_two]
    show ((i 0).val * 2048 + (i 1).val) * 2048 + (i 2).val = ((i 0).val * 2048 + (i 1).val) * 2048 + (i 2).val
    rfl)).trans ?_
  unfold outRows outFactored
  show (∑ k : Fin 2048, quant (Ideal.div (shapeCast SM x h1 (ix2 r k)) (xs (ix1 0))) * sitofp (F := Ideal) .bf16 wi (ix2 (i 2) k))
      * (shapeCast SR ws h2 (ix2 (0 : Fin 1) (i 2)) * xs (ix1 0)) + shapeCast SR bias h3 (ix2 (0 : Fin 1) (i 2)) = _
  rw [shapeCast_a_1a_apply ws h2 (0 : Fin 1) (i 2), shapeCast_a_1a_apply bias h3 (0 : Fin 1) (i 2)]
  refine congrArg (fun z => z * (ws (ix1 (i 2)) * xs (ix1 0)) + bias (ix1 (i 2))) (Finset.sum_congr rfl fun k _ => ?_)
  rw [merged_at x h1 (i 0) (i 1) k r rfl]
  rfl

end Cert.W8A8

end
-- ==== Proof.OutputRows.lean ====
/-
  The kernel's run, read: the result array as one function of the argument arrays.

  The launch has 32 grid points. Point t is handed rows 256·t … 256·t + 255 of the merged [8192, 2048] activations
  and, at every point, the whole weight matrix, the whole scale row, the whole bias row and the one-entry
  activation scale; it writes back rows 256·t … 256·t + 255 of the [8192, 2048] output. Row r of the output is
  therefore written by point r / 256, the 32 blocks cover the output, and every written entry is the row form of
  the product (QuantSpec's `outRows`) of the arrays as the launch finds them. Those arrays are the arguments
  reshaped (activations merged, the two vectors laid as rows) and the integer weights converted; the one host
  operation after the launch splits the rows back into [4, 2048, 2048].
-/
import proofs.«172959_j15753940041870_2_alg».proof.Proof.Gen.KernelIdeal.Frame
import proofs.«172959_j15753940041870_2_alg».proof.Proof.BodyValue
import proofs.«172959_j15753940041870_2_alg».proof.Proof.MergedRows
import Idealize.ShloMosaic.Lib.StableHlo.Run

set_option maxRecDepth 16384

noncomputable section

namespace Cert.W8A8.Rows

open Idealize.ShloMosaic Idealize.ShloMosaic.TcCoe Idealize.ShloMosaic.ValueIdx Idealize.SL.Sem
open Idealize.ShloMosaic.StableHlo
open Cert.KernelIdeal Cert.KernelIdeal.Gen Cert.W8A8

variable (m : (ℓ : Loc nD τ sig) → Buf (Elt Ideal) ℓ) (ρ : Dev nD → PrngReg)

/-! ## The arrays as the launch finds them -/

/-- The activations, batch and sequence merged. -/
theorem entry_x (c : Dev nD) : (V m c main_v0 : S8192x2048.Idx → EReal)
    = shapeCast S8192x2048 (m ((c : Thread nD τ).loc main_arg0)) shapeCasts_S4x2048x2048_S8192x2048 := by
  show StableHlo.after hostOps0 (fun b => m (c, b)) (Proc.devRef .tc main_v0) = _
  after_results
  rfl

/-- The integer weights as floats. -/
theorem entry_w (c : Dev nD) : (V m c main_v1 : S2048x2048.Idx → EReal)
    = sitofp (F := Ideal) .bf16 (m ((c : Thread nD τ).loc main_arg1)) := by
  show StableHlo.after hostOps0 (fun b => m (c, b)) (Proc.devRef .tc main_v1) = _
  after_results

/-- The weight scales as one row. -/
theorem entry_ws (c : Dev nD) : (V m c main_v2 : S1x2048.Idx → EReal)
    = shapeCast S1x2048 (m ((c : Thread nD τ).loc main_arg2)) shapeCasts_S2048_S1x2048 := by
  show StableHlo.after hostOps0 (fun b => m (c, b)) (Proc.devRef .tc main_v2) = _
  after_results
  rfl

/-- The bias as one row. -/
theorem entry_bias (c : Dev nD) : (V m c main_v3 : S1x2048.Idx → EReal)
    = shapeCast S1x2048 (m ((c : Thread nD τ).loc main_arg3)) shapeCasts_S2048_S1x2048 := by
  show StableHlo.after hostOps0 (fun b => m (c, b)) (Proc.devRef .tc main_v3) = _
  after_results
  rfl

/-! ## One stored entry against the row form -/

/-- The body's stored value at block entry y is the row form at array entry i, once each loaded block reads the
    launch-time array where i says: the activation row, the weight row, the scale and bias entries of i's column. -/
theorem stored_eq_rows (X2 : FVec Ideal S8192x2048 .f32) (Wb : FVec Ideal S2048x2048 .bf16) (Ws2 B2 : FVec Ideal S1x2048 .f32)
    (Xs : FVec Ideal S1 .f32)
    (v0 : Vec Ideal S1 .f32) (v2 : Vec Ideal S256x2048 .f32) (v12 : Vec Ideal S2048x2048 .bf16) (v15 v21 : Vec Ideal S1x2048 .f32)
    (y : S256x2048.Idx) (i : S8192x2048.Idx)
    (h0 : v0 (ix1 0) = Xs (ix1 0))
    (h2 : ∀ k : Fin 2048, v2 (ix2 (y 0) k) = X2 (ix2 (i 0) k))
    (h12 : ∀ k : Fin 2048, v12 (ix2 (y 1) k) = Wb (ix2 (i 1) k))
    (h15 : v15 (ix2 (0 : Fin 1) (y 1)) = Ws2 (ix2 (0 : Fin 1) (i 1)))
    (h21 : v21 (ix2 (0 : Fin 1) (y 1)) = B2 (ix2 (0 : Fin 1) (i 1))) :
    k0_pay1 v0 v2 v12 v15 v21 y = outRows X2 Wb Ws2 B2 Xs i := by
  refine (congrArg (k0_pay1 v0 v2 v12 v15 v21) (eq_ix2 y)).trans ((Body.stored_at v0 v2 v12 v15 v21 (y 0) (y 1)).trans ?_)
  unfold outRows
  simp only [h0, h2, h12, h15, h21]

/-! ## What each grid point is handed and writes back -/

theorem origin2 : (![0, 0] : Fin 2 → Nat) = fun _ => 0 := funext fun a => by fin_cases a <;> rfl
theorem origin1 : (![0] : Fin 1 → Nat) = fun _ => 0 := funext fun a => by fin_cases a <;> rfl

/-- The printed index maps over the grid: the activations' and the output's block row is the point's number, every
    other block index is zero. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point t writes back is block t of the row form of the launch-time arrays. -/
theorem written_block (c : Dev nD) (t : Fin cfg0.N) :
    (dats m 0 c).flushed 5 t = ((cfg0.win 5).blk t).view.read (Elt Ideal)
      (outRows (V m c main_v0) (V m c main_v1) (V m c main_v2) (V m c main_v3) (V m c main_arg4)) := by
  show (cfg0.win 5).cut (grid0.coords t) ((dats m 0 c).after 5 t) = _
  rw [after0_5]
  unfold out0_5
  rw [View.canon_unit_zero origin2]
  simp only [View.ld_unit_zero (S := S256x2048) origin2, View.ld_unit_zero (S := S2048x2048) origin2,
    View.ld_unit_zero (S := S1x2048) origin2, View.ld_unit_zero (S := S1) origin1]
  obtain ⟨e00, e01, e10, e11, e20, e21, e30, e31, e40, e50, e51⟩ := index_maps t
  funext j
  show k0_pay1 (iblk m c 4 t) (iblk m c 0 t) (iblk m c 1 t) (iblk m c 2 t) (iblk m c 3 t) j
    = outRows (V m c main_v0) (V m c main_v1) (V m c main_v2) (V m c main_v3) (V m c main_arg4) (((cfg0.win 5).blk t).view.emb j)
  refine stored_eq_rows (V m c main_v0) (V m c main_v1) (V m c main_v2) (V m c main_v3) (V m c main_arg4)
    (iblk m c 4 t) (iblk m c 0 t) (iblk m c 1 t) (iblk m c 2 t) (iblk m c 3 t) j (((cfg0.win 5).blk t).view.emb j) ?_ ?_ ?_ ?_ ?_
  · -- the scale block is the scale array
    show V m c main_arg4 (((cfg0.win 4).blk t).view.emb (ix1 0)) = V m c main_arg4 (ix1 0)
    refine congrArg (V m c main_arg4) (funext fun a => Fin.ext ?_)
    match a with
    | ⟨0, _⟩ => show win0_4.index t (0 : Fin 1) * 1 + 1 * 0 = 0; omega
  · -- the activation block's row p is row 256·t + p of the merged activations, as for the output block
    intro k
    show V m c main_v0 (((cfg0.win 0).blk t).view.emb (ix2 (j 0) k))
      = V m c main_v0 (ix2 ((((cfg0.win 5).blk t).view.emb j) 0) k)
    refine congrArg (V m c main_v0) (funext fun a => Fin.ext ?_)
    match a with
    | ⟨0, _⟩ => show win0_0.index t (0 : Fin 2) * 256 + 1 * (j 0).val = win0_5.index t (0 : Fin 2) * 256 + 1 * (j 0).val; omega
    | ⟨1, _⟩ => show win0_0.index t (1 : Fin 2) * 2048 + 1 * k.val = k.val; omega
  · -- the weight block is the whole weight matrix; the output's column is its row
    intro k
    show V m c main_v1 (((cfg0.win 1).blk t).view.emb (ix2 (j 1) k))
      = V m c main_v1 (ix2 ((((cfg0.win 5).blk t).view.emb j) 1) k)
    refine congrArg (V m c main_v1) (funext fun a => Fin.ext ?_)
    match a with
    | ⟨0, _⟩ => show win0_1.index t (0 : Fin 2) * 2048 + 1 * (j 1).val = win0_5.index t (1 : Fin 2) * 2048 + 1 * (j 1).val; omega
    | ⟨1, _⟩ => show win0_1.index t (1 : Fin 2) * 2048 + 1 * k.val = k.val; omega
  · -- the scale row
    show V m c main_v2 (((cfg0.win 2).blk t).view.emb (ix2 (0 : Fin 1) (j 1)))
      = V m c main_v2 (ix2 (0 : Fin 1) ((((cfg0.win 5).blk t).view.emb j) 1))
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 2048 + 1 * (j 1).val = win0_5.index t (1 : Fin 2) * 2048 + 1 * (j 1).val; omega
  · -- the bias row
    show V m c main_v3 (((cfg0.win 3).blk t).view.emb (ix2 (0 : Fin 1) (j 1)))
      = V m c main_v3 (ix2 (0 : Fin 1) ((((cfg0.win 5).blk t).view.emb j) 1))
    refine congrArg (V m c main_v3) (funext fun a => Fin.ext ?_)
    match a with
    | ⟨0, _⟩ => show win0_3.index t (0 : Fin 2) * 1 + 1 * 0 = 0; omega
    | ⟨1, _⟩ => show win0_3.index t (1 : Fin 2) * 2048 + 1 * (j 1).val = win0_5.index t (1 : Fin 2) * 2048 + 1 * (j 1).val; omega

/-! ## The 32 blocks cover the output -/

/-- An entry of the output lies in point t's block iff its row is among rows 256·t … 256·t + 255. -/
theorem mem_block (t : Fin cfg0.N) (i : S8192x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v4).slice (win0_5.rect t)).set ↔ _
  rw [View.set_slice_whole, Rect.mem_set_unit]
  exact Iff.rfl

/-- Row r is written back by point r / 256. -/
theorem covered (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  have hN : (i 0).val / 256 < cfg0.N := by show _ < grid0.N; rw [N_0]; omega
  refine ⟨⟨(i 0).val / 256, hN⟩, flush0_5 _, ?_⟩
  rw [mem_block]
  obtain ⟨e00, e01, e10, e11, e20, e21, e30, e31, e40, e50, e51⟩ := index_maps ⟨(i 0).val / 256, hN⟩
  have e50' : win0_5.index ⟨(i 0).val / 256, hN⟩ (0 : Fin 2) = (i 0).val / 256 := e50
  intro a
  match a with
  | ⟨0, _⟩ =>
    show win0_5.index ⟨(i 0).val / 256, hN⟩ (0 : Fin 2) * 256 ≤ (i 0).val
      ∧ (i 0).val < win0_5.index ⟨(i 0).val / 256, hN⟩ (0 : Fin 2) * 256 + 256
    omega
  | ⟨1, _⟩ =>
    show win0_5.index ⟨(i 0).val / 256, hN⟩ (1 : Fin 2) * 2048 ≤ (i 1).val
      ∧ (i 1).val < win0_5.index ⟨(i 0).val / 256, hN⟩ (1 : Fin 2) * 2048 + 2048
    omega

/-- The output array after the launch is the row form of the launch-time arrays. -/
theorem output_rows (c : Dev nD) :
    (dats m 0 c).arrAt 5 cfg0.N
      = outRows (V m c main_v0) (V m c main_v1) (V m c main_v2) (V m c main_v3) (V m c main_arg4) :=
  (dats m 0 c).arrAt_eq_of_cover 5 _ (fun t _ => written_block m c t) covered

end Cert.W8A8.Rows

end
-- ==== Proof.KernelRun.lean ====
/-
  The kernel's run with its result named: every execution ends with the result array at the factored arrangement of
  the argument arrays, the arguments unchanged.

  After the launch the output rows hold the row form of the launch-time arrays (OutputRows); the one host operation
  after it splits the 8192 rows back into [4, 2048]; and the launch-time arrays are the arguments merged, laid as
  rows, and converted (OutputRows' entry lemmas), so MergedRows' identity turns the whole into the factored
  arrangement of the arguments themselves.
-/
import proofs.«172959_j15753940041870_2_alg».proof.Proof.OutputRows

set_option maxRecDepth 16384

noncomputable section

namespace Cert.W8A8.Rows

open Idealize.ShloMosaic Idealize.ShloMosaic.TcCoe Idealize.ShloMosaic.ValueIdx Idealize.SL.Sem
open Idealize.ShloMosaic.StableHlo
open Cert.KernelIdeal Cert.KernelIdeal.Gen Cert.W8A8

variable (m : (ℓ : Loc nD τ sig) → Buf (Elt Ideal) ℓ) (ρ : Dev nD → PrngReg)

/-- The result buffer after the host operation that follows the launch: the output rows split back. -/
theorem result_rows (c : Dev nD) :
    Pipeline.afterTail₀ cfgs (dats m) 0 (V0 m) [hostOps1] c main_v5
      = shapeCast S4x2048x2048 (outRows (V m c main_v0) (V m c main_v1) (V m c main_v2) (V m c main_v3) (V m c main_arg4))
          shapeCasts_S8192x2048_S4x2048x2048 := by
  unfold Pipeline.afterTail₀
  show StableHlo.after hostOps1 _ (Proc.devRef .tc main_v5) = _
  after_results
  have e := (Pipeline.withArrays_arr spec0 launch0.win.arr_inj c (V0 m c) (fun w => (dats m 0 c).arrAt w cfg0.N) 5).trans
    (output_rows m c)
  show shapeCast S4x2048x2048 (Pipeline.withArrays spec0 c (V0 m c) (fun w => (dats m 0 c).arrAt w cfg0.N)
    (Proc.devRef .tc (Pipeline.arrRef spec0 5))) shapeCasts_S8192x2048_S4x2048x2048 = _
  rw [e]

/-- The result buffer as a function of the arguments: the factored arrangement. -/
theorem result_factored (c : Dev nD) :
    Pipeline.afterTail₀ cfgs (dats m) 0 (V0 m) [hostOps1] c main_v5
      = outFactored (m ((c : Thread nD τ).loc main_arg0)) (m ((c : Thread nD τ).loc main_arg1))
          (m ((c : Thread nD τ).loc main_arg2)) (m ((c : Thread nD τ).loc main_arg3)) (m ((c : Thread nD τ).loc main_arg4)) := by
  rw [result_rows, entry_x, entry_w, entry_ws, entry_bias, V_main_arg4]
  exact rows_split _ _ _ _ _ _ _ _ _

/-- Every weakly fair execution of the idealized kernel terminates with the result at the factored arrangement of the
    arguments and the arguments as launched. -/
theorem run : θ_run defs (onTc (τ := τ) (main (F := Ideal))) ⟨m, fun _ => 0, ρ⟩ (fun r => ∀ c : Dev nD,
      r.2.mem ((c.tc : Thread nD τ).loc main_v5)
        = outFactored (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (result_factored m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.W8A8.Rows

end
-- ==== Proof.RefTermwise.lean ====
/-
  The reference, read one operation at a time, is the termwise arrangement.

  Its activations are x / xs rounded and clamped (the two clamp bounds broadcast from scalars, the scale broadcast from
  its one entry), then multiplied back by xs; its weights are the integers times the per-row scale laid along the
  rows; the contraction runs over the last axis of both; the bias is laid along the last axis of the result. Each
  broadcast reads its operand at the coordinates it keeps, so at (b, s, o) the result is
  Σ_k (q(x[b,s,k]/xs) · xs) · (w[o,k] · ws[o]) + bias[o].
-/
import proofs.«172959_j15753940041870_2_alg».proof.Proof.Gen.ReferenceIdeal.Read
import proofs.«172959_j15753940041870_2_alg».proof.Proof.QuantSpec

noncomputable section

namespace Cert.W8A8.Ref

open Idealize.ShloMosaic Idealize.ShloMosaic.ValueIdx Cert.ReferenceIdeal Cert.ReferenceIdeal.Read Cert.W8A8

/-- The scale broadcast over the activations' shape reads its one entry everywhere (first use: the divisor). -/
theorem scale_div (x4 : FVec Ideal SS .f32) (j : SX.Idx) : val_main_v1 (F := Ideal) x4 j = x4 (ix1 0) := by
  rw [val_main_v1_apply, val_main_v0_apply]
  exact congrArg x4 (funext fun a => match a with | ⟨0, _⟩ => rfl)

/-- The same broadcast, second use: the factor that undoes the division. -/
theorem scale_mul (x4 : FVec Ideal SS .f32) (j : SX.Idx) : val_main_v6 (F := Ideal) x4 j = x4 (ix1 0) := by
  rw [val_main_v6_apply, val_main_v5_apply]
  exact congrArg x4 (funext fun a => match a with | ⟨0, _⟩ => rfl)

/-- The clamped, rounded quotient is the quantizer of x / xs. -/
theorem clamp_eq (x0 : FVec Ideal SX .f32) (x4 : FVec Ideal SS .f32) (j : SX.Idx) :
    val_main_v4 (F := Ideal) x0 x4 j = quant (Ideal.div (x0 j) (x4 (ix1 0))) := by
  rw [val_main_v4_apply, val_main_call1_v4_apply, val_main_call1_v3_apply, val_main_cst_0_apply,
    val_main_call1_v2_apply, val_main_call1_v1_apply, val_main_call1_v0_apply, val_main_cst_apply,
    val_main_v3_apply, val_main_v2_apply, scale_div]
  rfl

/-- The dequantized weight at (o, k) is the integer times row o's scale. -/
theorem weight_eq (x1 : IVec SW 32) (x2 : FVec Ideal SV .f32) (j : SW.Idx) :
    val_main_v11 (F := Ideal) x1 x2 j = (((x1 j).toInt : ℝ) : EReal) * x2 (ix1 (j 0)) := by
  rw [val_main_v11_apply, val_main_v8_apply, val_main_v10_apply, val_main_v9_apply]
  have e : idx_main_v9 (idx_main_v10 j) = ix1 (j 0) := funext fun a => match a with | ⟨0, _⟩ => rfl
  rw [e]
  rfl

/-- The reference's result is the termwise arrangement. -/
theorem result_eq (x0 : FVec Ideal SX .f32) (x1 : IVec SW 32) (x2 x3 : FVec Ideal SV .f32) (x4 : FVec Ideal SS .f32) :
    val_main_v15 (F := Ideal) x0 x1 x2 x3 x4 = outTermwise x0 x1 x2 x3 x4 := by
  funext i
  rw [val_main_v15_apply, val_main_v12_apply, val_main_v14_apply, val_main_v13_apply]
  have e3 : idx_main_v13 (idx_main_v14 i) = ix1 (i 2) := funext fun a => match a with | ⟨0, _⟩ => rfl
  rw [e3]
  unfold outTermwise
  show (∑ k : Fin 2048, _) + x3 (ix1 (i 2)) = _
  refine congrArg (· + x3 (ix1 (i 2))) (Finset.sum_congr rfl fun k _ => ?_)
  have el : lidx_main_v12 i k = ix3 (i 0) (i 1) k :=
    funext fun a => match a with | ⟨0, _⟩ => rfl | ⟨1, _⟩ => rfl | ⟨2, _⟩ => rfl
  have er : ridx_main_v12 i k = ix2 (i 2) k := funext fun a => match a with | ⟨0, _⟩ => rfl | ⟨1, _⟩ => rfl
  rw [val_main_v7_apply, clamp_eq, scale_mul, weight_eq, el, er]
  rfl

end Cert.W8A8.Ref

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.FiniteScales.lean ====
/-
  The precondition makes the two scales real numbers.

  The precondition is the conjunction of four "all entries satisfy |v| < +∞" tests, one per float argument, each an
  and-reduction of entrywise comparisons; a true test makes every entry of its argument a real number
  (LibFiniteEntry). Only the weight scales' and the activation scale's tests are used.
-/
import proofs.«172959_j15753940041870_2_alg».proof.Pre_finite_inputs
import proofs.«172959_j15753940041870_2_alg».proof.Proof.LibFiniteEntry

noncomputable section

namespace Cert.W8A8.Finite

open Idealize.ShloMosaic Idealize.ShloMosaic.ValueIdx Cert.Pre_finite_inputs

variable [Cert.Pre_finite_inputs.Facts]

/-- Under the precondition every weight scale and the activation scale are real numbers. -/
theorem scales_real (a0 : FVec Ideal S4x2048x2048 .f32) (a1 : IVec S2048x2048 32) (a2 a3 : FVec Ideal S2048 .f32)
    (a4 : FVec Ideal S1 .f32) (h : Cert.Pre_finite_inputs.fn (F := Ideal) a0 a1 a2 a3 a4 = fun _ => 1#1) :
    (∀ i : S2048.Idx, ∃ r : ℝ, a2 i = (r : EReal)) ∧ (∀ i : S1.Idx, ∃ r : ℝ, a4 i = (r : EReal)) := by
  have h0 := congrFun h ix0
  dsimp only [Cert.Pre_finite_inputs.fn, Cert.Pre_finite_inputs.fn_part1, andi] at h0
  simp only [IntOp.andi_eq_one] at h0
  obtain ⟨⟨⟨_, h2⟩, _⟩, h4⟩ := h0
  exact ⟨fun i => Cert.Lib.FiniteEntry.all_real a2 _ _ _ _ h2 i, fun i => Cert.Lib.FiniteEntry.all_real a4 _ _ _ _ h4 i⟩

end Cert.W8A8.Finite

end
-- ==== Proof.lean ====
/-
  An int8-weight, int8-activation linear layer with its quantization folded in, against the plain formulation.

  Both programs quantize the activations the same way, q = clamp(roundeven(x / xs), -128, 127), and contract them
  against the same integer weights. The kernel multiplies the raw quantized values against the raw integers and
  applies the two scales afterwards, per output column: (Σ_k q·w) · (ws · xs) + bias. The reference dequantizes
  both operands first: Σ_k (q·xs) · (w·ws) + bias. Over the extended reals these agree once the scales are real
  numbers — every quantized value is real whatever was quantized, the integers are real, and a common real factor
  comes out of a finite sum of reals — and the precondition (all float inputs finite) makes the scales real.

  The modules: QuantSpec (the quantizer, the two arrangements, the law between them), RefTermwise (the reference is
  the termwise arrangement), BodyValue (one stored entry of the kernel body), OutputRows and KernelRun (the 32 row
  blocks cover the output, which is the factored arrangement of the arguments), MergedRows (merging and splitting
  the batch and sequence axes), FiniteScales (the precondition read back), over two general files: LibRealSum (a real
  factor comes out of a finite sum of reals inside the extended reals) and LibFiniteEntry (a true "all entries finite"
  test makes every entry a real number).
-/
import proofs.«172959_j15753940041870_2_alg».proof.Defs
import proofs.«172959_j15753940041870_2_alg».proof.Proof.Gen.Kernel
import proofs.«172959_j15753940041870_2_alg».proof.Proof.Gen.Kernel.Skeleton
import proofs.«172959_j15753940041870_2_alg».proof.Proof.Gen.Kernel.Launch
import proofs.«172959_j15753940041870_2_alg».proof.Proof.Gen.Kernel.Points
import proofs.«172959_j15753940041870_2_alg».proof.Proof.Gen.Kernel.Frame
import proofs.«172959_j15753940041870_2_alg».proof.Proof.Gen.KernelIdeal
import proofs.«172959_j15753940041870_2_alg».proof.Proof.Gen.KernelIdeal.Skeleton
import proofs.«172959_j15753940041870_2_alg».proof.Proof.Gen.KernelIdeal.Launch
import proofs.«172959_j15753940041870_2_alg».proof.Proof.Gen.KernelIdeal.Points
import proofs.«172959_j15753940041870_2_alg».proof.Proof.Gen.KernelIdeal.Frame
import proofs.«172959_j15753940041870_2_alg».proof.Proof.Gen.ReferenceIdeal
import proofs.«172959_j15753940041870_2_alg».proof.Proof.Gen.ReferenceIdeal.Run
import proofs.«172959_j15753940041870_2_alg».proof.Proof.Gen.ReferenceIdeal.Read
import proofs.«172959_j15753940041870_2_alg».proof.Proof.Gen.Pre_finite_inputs
import proofs.«172959_j15753940041870_2_alg».proof.Proof.KernelRun
import proofs.«172959_j15753940041870_2_alg».proof.Proof.RefTermwise
import proofs.«172959_j15753940041870_2_alg».proof.Proof.FiniteScales
import Idealize.ShloMosaic.Adequacy
import Idealize.ShloMosaic.Init

noncomputable section

namespace Cert.Proof

open Idealize.ShloMosaic Idealize.ShloMosaic.ValueIdx Idealize.SL.Sem

/-- The word-level kernel terminates, faults nowhere and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From agreeing arguments the kernel ends at the factored arrangement and the reference at the termwise one; with
    the scales real (the precondition) the two are equal. -/
theorem algebraic : Cert.algebraic_KernelIdeal_ReferenceIdeal := by
  intro m ρ m' ρ' hpre hagree
  refine ⟨_, Cert.W8A8.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.W8A8.Ref.result_eq,
    (hagree c).1, (hagree c).2.1, (hagree c).2.2.1, (hagree c).2.2.2.1, (hagree c).2.2.2.2]
  obtain ⟨hws, hxs⟩ := Cert.W8A8.Finite.scales_real _ _ _ _ _ (hpre c)
  exact Cert.W8A8.outTermwise_eq_outFactored _ _ _ _ _ (hxs (ix1 0)) (fun o => hws (ix1 o))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
